-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000000 : Shape := ⟨2, ![2, 20000000]⟩
abbrev S20000000 : Shape := ⟨1, ![20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : IVec S2x20000000 32) (main_arg1 : FVec F S20000000 .f32) (main_arg2 : IVec S20000000 1) : IVec S_ 1 :=
  let main_v0 : FVec F S20000000 .f32 := Host.absf main_arg1
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S2x20000000 : Shape := ⟨2, ![2, 20000000]⟩
abbrev S20000000 : Shape := ⟨1, ![20000000]⟩
abbrev S156250x128 : Shape := ⟨2, ![156250, 128]⟩
abbrev S16384x128 : Shape := ⟨2, ![16384, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S156250x128, .f32⟩
  | .hbm, ⟨4, _⟩ => ⟨S156250x128, .i1⟩
  | .hbm, ⟨5, _⟩ => ⟨S156250x128, .i32⟩
  | .hbm, ⟨6, _⟩ => ⟨S156250x128, .f32⟩
  | .hbm, ⟨7, _⟩ => ⟨S20000000, .f32⟩
  | .local _ .vmem, ⟨0, _⟩ => ⟨S16384x128, .f32⟩
  | .local _ .vmem, ⟨1, _⟩ => ⟨S16384x128, .f32⟩
  | .local _ .vmem, ⟨2, _⟩ => ⟨S16384x128, .i32⟩
  | .local _ .vmem, ⟨3, _⟩ => ⟨S16384x128, .i32⟩
  | .local _ .vmem, ⟨4, _⟩ => ⟨S16384x128, .f32⟩
  | .local _ .vmem, ⟨5, _⟩ => ⟨S16384x128, .f32⟩
  | _, _ => ⟨S2x20000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S20000000_S156250x128 : S20000000.ShapeCasts S156250x128
  natLt_1_32 : 1 < 32
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S156250x128_S20000000 : S156250x128.ShapeCasts S20000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x128.size a < S156250x128.size a
  hwx0_0 : ∀ i : grid0.Coords, EltTy.bits .f32 = 32 ∨ (Rect.unit (s := S156250x128) (fun a => cc0_transform_0 i a * S16384x128.size a) (fun a => (Pipeline.Clip.of (cc0_transform_0 i a) (S16384x128.size a) (S156250x128.size a)).extent (S16384x128.size a)) fun a => Pipeline.Clip.inb (Pipeline.Clip.ok_of (hstart0_0 i a))).WholeWords (EltTy.packing .f32)
  hwxs0_0 : ∀ i : grid0.Coords, EltTy.bits .f32 = 32 ∨ (Rect.unit (s := S16384x128) (fun _ => 0) (fun a => (Pipeline.Clip.of (cc0_transform_0 i a) (S16384x128.size a) (S156250x128.size a)).extent (S16384x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x128.size a < S156250x128.size a
  hwx0_1 : ∀ i : grid0.Coords, EltTy.bits .i32 = 32 ∨ (Rect.unit (s := S156250x128) (fun a => cc0_transform_1 i a * S16384x128.size a) (fun a => (Pipeline.Clip.of (cc0_transform_1 i a) (S16384x128.size a) (S156250x128.size a)).extent (S16384x128.size a)) fun a => Pipeline.Clip.inb (Pipeline.Clip.ok_of (hstart0_1 i a))).WholeWords (EltTy.packing .i32)
  hwxs0_1 : ∀ i : grid0.Coords, EltTy.bits .i32 = 32 ∨ (Rect.unit (s := S16384x128) (fun _ => 0) (fun a => (Pipeline.Clip.of (cc0_transform_1 i a) (S16384x128.size a) (S156250x128.size a)).extent (S16384x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16384x128.size a < S156250x128.size a
  hwx0_2 : ∀ i : grid0.Coords, EltTy.bits .f32 = 32 ∨ (Rect.unit (s := S156250x128) (fun a => cc0_transform_2 i a * S16384x128.size a) (fun a => (Pipeline.Clip.of (cc0_transform_2 i a) (S16384x128.size a) (S156250x128.size a)).extent (S16384x128.size a)) fun a => Pipeline.Clip.inb (Pipeline.Clip.ok_of (hstart0_2 i a))).WholeWords (EltTy.packing .f32)
  hwxs0_2 : ∀ i : grid0.Coords, EltTy.bits .f32 = 32 ∨ (Rect.unit (s := S16384x128) (fun _ => 0) (fun a => (Pipeline.Clip.of (cc0_transform_2 i a) (S16384x128.size a) (S156250x128.size a)).extent (S16384x128.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v0) S16384x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v2) S16384x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S16384x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x20000000 : Shape := ⟨2, ![2, 20000000]⟩
abbrev S20000000 : Shape := ⟨1, ![20000000]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S20000000, .i1⟩
  | .hbm, ⟨3, _⟩ => ⟨S_, .f32⟩
  | .hbm, ⟨4, _⟩ => ⟨S20000000, .f32⟩
  | .hbm, ⟨5, _⟩ => ⟨S20000000, .f32⟩
  | _, _ => ⟨S2x20000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)

variable [Facts₀]

class Facts : Prop extends Facts₀ where

variable [Facts]
-- ==== Proof.BitsBody.lean ====
/-
  The kernel's body and its frame, for any reading of the floats.

  The region runs over ten grid points. At point `t` the pipeline fetches rows `16384·t ‥` of the values array and of
  the mask array (both 156250 × 128) into staging blocks of 16384 × 128, runs the body, and writes the result block
  back to the same rows of the result array. 156250 = 9 · 16384 + 8794, so the tenth block overhangs its array: only its
  first 8794 rows are moved, and what the staging buffers hold below them is not named by anything.

  The body is entrywise: it loads both whole blocks, keeps the value where the mask word is not zero and puts the
  zero word elsewhere, and stores the whole block. So a row of the result block depends on the same row of the two
  input blocks and on nothing else; in particular the moved rows of the result depend on the moved rows of the inputs
  only, which is all that has to be said of a block that overhangs.
-/
import proofs.«114767_j5171140624758_2_alg».proof.Proof.Gen.Kernel.Frame
import proofs.«114767_j5171140624758_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One entry -/

/-- One entry of the result: the value where the mask word is not zero, the zero word elsewhere. -/
def keep (b : BitVec 32) (x : F .f32) : F .f32 :=
  Scalar.select (IntOp.cmpi .ne b 0#32) x (Scalar.ofBits .f32 0x00000000#32)

/-- The body's stored block is `keep`, entry by entry, of the mask block and the values block: the two shape casts
    are to the block's own shape, the comparison, the splat and the selection are entrywise. -/
theorem pay_apply (v0 : Vec F S16384x128 .i32) (v3 : Vec F S16384x128 .f32) (j : S16384x128.Idx) :
    k0_pay1 v0 v3 j = keep (v0 j) (v3 j) := by
  unfold k0_pay1 keep
  rw [shapeCast_self, shapeCast_self]
  rfl

/-! ## The body's triple -/

/-- The rectangle of every access of the body: the whole block. -/
abbrev whole : Rect S16384x128 := Rect.unit (s := S16384x128) ![0, 0] S16384x128.size inb_S16384x128_S16384x128_0_0

theorem whole_off : (![0, 0] : Fin 2 → Nat) = fun _ => 0 := funext fun a => by fin_cases a <;> rfl

/-- What the one store leaves in the result's staging buffer, as a function of what the two loads read. -/
def stored (x0 : Vec F S16384x128 .f32) (x1 : Vec F S16384x128 .i32) : Vec F S16384x128 .f32 :=
  View.canon [⟨whole, k0_pay1 (View.ld x1 whole) (View.ld x0 whole)⟩]

/-- The accesses are of whole blocks: the store leaves the payload of the blocks' contents. -/
theorem stored_eq (x0 : Vec F S16384x128 .f32) (x1 : Vec F S16384x128 .i32) : stored x0 x1 = k0_pay1 x1 x0 := by
  unfold stored
  rw [View.canon_unit_zero whole_off]
  simp only [View.ld_unit_zero (S := S16384x128) whole_off]

set_option maxHeartbeats 1000000 in
/-- The body on whole staging memrefs — the values' at `x0`, the mask's at `x1`, the result's at anything — runs to
    the continuation holding the inputs' as they were and the result's at `stored x0 x1`. -/
theorem sound_kernel (c : Dev nD) (E : Set ℕ) (i : grid0.Coords) (arg1 : Memref sig .tc .vmem S16384x128 .f32) (harg1 : arg1.IsWhole)
    (arg2 : Memref sig .tc .vmem S16384x128 .i32) (harg2 : arg2.IsWhole) (arg3 : Memref sig .tc .vmem S16384x128 .f32) (harg3 : arg3.IsWhole)
    (x0 : Vec F S16384x128 .f32) (x1 : Vec F S16384x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__dropout_kernel i arg1 harg1 arg2 harg2 arg3 harg3) K := by
  simp only [cc0__dropout_kernel_eq_skeleton]; unfold cc0__dropout_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero whole_off inb_S16384x128_S16384x128_0_0 y⟩)

/-! ## The proof data -/

/-- The values' block at point `t` (its rows inside the array), filled out below them with the zero word. -/
def valBlock (c : Dev nD) (t : Fin cfg0.N) : S16384x128.Idx → F .f32 :=
  win0_0.fill (grid0.coords t) (fun _ => Scalar.ofBits .f32 0x00000000#32) (iblk m c 0 t)
/-- The mask's block likewise, filled out with zero words. -/
def maskBlock (c : Dev nD) (t : Fin cfg0.N) : S16384x128.Idx → BitVec 32 :=
  win0_1.fill (grid0.coords t) (fun _ => 0#32) (iblk m c 1 t)
/-- The result's block: `keep`, entry by entry, of those two. -/
def outBlock (c : Dev nD) (t : Fin cfg0.N) : S16384x128.Idx → F .f32 :=
  fun j => keep (maskBlock m c t j) (valBlock m c t j)

/-- The proof data of the pipeline on core `c`: the arrays as the region finds them; after the body at point `t` the
    three staging buffers at `valBlock`, `maskBlock`, `outBlock` (of which only the moved rows are ever stated); the
    invariant the scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => valBlock m c t
    | ⟨1, _⟩ => maskBlock m c t
    | ⟨2, _⟩ => outBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = valBlock m c t := by dsimp only [dats]
theorem after_1 (c : Dev nD) (t : Fin cfg0.N) : (dats m 0 c).after 1 t = maskBlock m c t := by dsimp only [dats]
theorem after_2 (c : Dev nD) (t : Fin cfg0.N) : (dats m 0 c).after 2 t = outBlock m c t := by dsimp only [dats]

/-- Both inputs are fetched at every point: the body finds the block's rows inside the array, and below them whatever
    the buffer held (`d`). -/
theorem before_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk
  rw [A_eq]
theorem before_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]

/-- On the moved rows, the payload of two filled blocks is `keep` of the blocks, whatever fills them out. -/
theorem cut_pay (c : Dev nD) (t : Fin cfg0.N) (d0 : S16384x128.Idx → F .f32) (d1 : S16384x128.Idx → BitVec 32) :
    win0_2.cut (grid0.coords t) (k0_pay1 (win0_1.fill (grid0.coords t) d1 (iblk m c 1 t)) (win0_0.fill (grid0.coords t) d0 (iblk m c 0 t)))
      = fun j => keep (iblk m c 1 t j) (iblk m c 0 t j) := by
  funext j
  show k0_pay1 _ _ (win0_2.xinj (grid0.coords t) j) = _
  rw [pay_apply]
  exact congrArg₂ keep (win0_1.fill_xinj (grid0.coords t) d1 (iblk m c 1 t) j) (win0_0.fill_xinj (grid0.coords t) d0 (iblk m c 0 t) j)

theorem cut_outBlock (c : Dev nD) (t : Fin cfg0.N) :
    win0_2.cut (grid0.coords t) (outBlock m c t) = fun j => keep (iblk m c 1 t j) (iblk m c 0 t j) := by
  funext j
  show keep (maskBlock m c t (win0_2.xinj (grid0.coords t) j)) (valBlock m c t (win0_2.xinj (grid0.coords t) j)) = _
  exact congrArg₂ keep (win0_1.fill_xinj (grid0.coords t) _ (iblk m c 1 t) j) (win0_0.fill_xinj (grid0.coords t) _ (iblk m c 0 t) j)

/-! ## The body obligation -/

/-- What the body is called with at point `t`: the invariant, nothing owed, and each window's current staging buffer
    at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: each buffer at the proof data's contents ON THE MOVED ROWS, anything below them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- At every point: the inputs' buffers arrive holding their blocks filled out with anything, the result's holding
    anything; they leave holding the same and the payload, whose moved rows are the proof data's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.cut (grid0.coords t) (valBlock m c t) = iblk m c 0 t := win0_0.cut_fill _ _ _
  have h1 : win0_1.cut (grid0.coords t) (maskBlock m c t) = iblk m c 1 t := win0_1.cut_fill _ _ _
  isplitl [H0]
  · iexists d0; rw [h0]; iexact H0
  isplitl [H1]
  · iexists d1; rw [h1]; iexact H1
  · iexists stored (win0_0.fill (grid0.coords t) d0 (iblk m c 0 t)) (win0_1.fill (grid0.coords t) d1 (iblk m c 1 t))
    rw [cut_outBlock, ← cut_pay m c t d0 d1, ← stored_eq, Window.fill_cut]
    iexact H2

/-- The library's body obligation (its form for windows stated on the moved rows only), at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data computes and every other buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, nothing faults, and the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.IdealBody.lean ====
/-
  The kernel's body and its frame, for any reading of the floats.

  The region runs over ten grid points. At point `t` the pipeline fetches rows `16384·t ‥` of the values array and of
  the mask array (both 156250 × 128) into staging blocks of 16384 × 128, runs the body, and writes the result block
  back to the same rows of the result array. 156250 = 9 · 16384 + 8794, so the tenth block overhangs its array: only its
  first 8794 rows are moved, and what the staging buffers hold below them is not named by anything.

  The body is entrywise: it loads both whole blocks, keeps the value where the mask word is not zero and puts the
  zero word elsewhere, and stores the whole block. So a row of the result block depends on the same row of the two
  input blocks and on nothing else; in particular the moved rows of the result depend on the moved rows of the inputs
  only, which is all that has to be said of a block that overhangs.
-/
import proofs.«114767_j5171140624758_2_alg».proof.Proof.Gen.KernelIdeal.Frame
import proofs.«114767_j5171140624758_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One entry -/

/-- One entry of the result: the value where the mask word is not zero, the zero word elsewhere. -/
def keep (b : BitVec 32) (x : F .f32) : F .f32 :=
  Scalar.select (IntOp.cmpi .ne b 0#32) x (Scalar.ofBits .f32 0x00000000#32)

/-- The body's stored block is `keep`, entry by entry, of the mask block and the values block: the two shape casts
    are to the block's own shape, the comparison, the splat and the selection are entrywise. -/
theorem pay_apply (v0 : Vec F S16384x128 .i32) (v3 : Vec F S16384x128 .f32) (j : S16384x128.Idx) :
    k0_pay1 v0 v3 j = keep (v0 j) (v3 j) := by
  unfold k0_pay1 keep
  rw [shapeCast_self, shapeCast_self]
  rfl

/-! ## The body's triple -/

/-- The rectangle of every access of the body: the whole block. -/
abbrev whole : Rect S16384x128 := Rect.unit (s := S16384x128) ![0, 0] S16384x128.size inb_S16384x128_S16384x128_0_0

theorem whole_off : (![0, 0] : Fin 2 → Nat) = fun _ => 0 := funext fun a => by fin_cases a <;> rfl

/-- What the one store leaves in the result's staging buffer, as a function of what the two loads read. -/
def stored (x0 : Vec F S16384x128 .f32) (x1 : Vec F S16384x128 .i32) : Vec F S16384x128 .f32 :=
  View.canon [⟨whole, k0_pay1 (View.ld x1 whole) (View.ld x0 whole)⟩]

/-- The accesses are of whole blocks: the store leaves the payload of the blocks' contents. -/
theorem stored_eq (x0 : Vec F S16384x128 .f32) (x1 : Vec F S16384x128 .i32) : stored x0 x1 = k0_pay1 x1 x0 := by
  unfold stored
  rw [View.canon_unit_zero whole_off]
  simp only [View.ld_unit_zero (S := S16384x128) whole_off]

set_option maxHeartbeats 1000000 in
/-- The body on whole staging memrefs — the values' at `x0`, the mask's at `x1`, the result's at anything — runs to
    the continuation holding the inputs' as they were and the result's at `stored x0 x1`. -/
theorem sound_kernel (c : Dev nD) (E : Set ℕ) (i : grid0.Coords) (arg1 : Memref sig .tc .vmem S16384x128 .f32) (harg1 : arg1.IsWhole)
    (arg2 : Memref sig .tc .vmem S16384x128 .i32) (harg2 : arg2.IsWhole) (arg3 : Memref sig .tc .vmem S16384x128 .f32) (harg3 : arg3.IsWhole)
    (x0 : Vec F S16384x128 .f32) (x1 : Vec F S16384x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__dropout_kernel i arg1 harg1 arg2 harg2 arg3 harg3) K := by
  simp only [cc0__dropout_kernel_eq_skeleton]; unfold cc0__dropout_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (fun y => ⟨_, List.mem_singleton_self _, View.mem_set_unit_zero whole_off inb_S16384x128_S16384x128_0_0 y⟩)

/-! ## The proof data -/

/-- The values' block at point `t` (its rows inside the array), filled out below them with the zero word. -/
def valBlock (c : Dev nD) (t : Fin cfg0.N) : S16384x128.Idx → F .f32 :=
  win0_0.fill (grid0.coords t) (fun _ => Scalar.ofBits .f32 0x00000000#32) (iblk m c 0 t)
/-- The mask's block likewise, filled out with zero words. -/
def maskBlock (c : Dev nD) (t : Fin cfg0.N) : S16384x128.Idx → BitVec 32 :=
  win0_1.fill (grid0.coords t) (fun _ => 0#32) (iblk m c 1 t)
/-- The result's block: `keep`, entry by entry, of those two. -/
def outBlock (c : Dev nD) (t : Fin cfg0.N) : S16384x128.Idx → F .f32 :=
  fun j => keep (maskBlock m c t j) (valBlock m c t j)

/-- The proof data of the pipeline on core `c`: the arrays as the region finds them; after the body at point `t` the
    three staging buffers at `valBlock`, `maskBlock`, `outBlock` (of which only the moved rows are ever stated); the
    invariant the scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => valBlock m c t
    | ⟨1, _⟩ => maskBlock m c t
    | ⟨2, _⟩ => outBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = valBlock m c t := by dsimp only [dats]
theorem after_1 (c : Dev nD) (t : Fin cfg0.N) : (dats m 0 c).after 1 t = maskBlock m c t := by dsimp only [dats]
theorem after_2 (c : Dev nD) (t : Fin cfg0.N) : (dats m 0 c).after 2 t = outBlock m c t := by dsimp only [dats]

/-- Both inputs are fetched at every point: the body finds the block's rows inside the array, and below them whatever
    the buffer held (`d`). -/
theorem before_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk
  rw [A_eq]
theorem before_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]

/-- On the moved rows, the payload of two filled blocks is `keep` of the blocks, whatever fills them out. -/
theorem cut_pay (c : Dev nD) (t : Fin cfg0.N) (d0 : S16384x128.Idx → F .f32) (d1 : S16384x128.Idx → BitVec 32) :
    win0_2.cut (grid0.coords t) (k0_pay1 (win0_1.fill (grid0.coords t) d1 (iblk m c 1 t)) (win0_0.fill (grid0.coords t) d0 (iblk m c 0 t)))
      = fun j => keep (iblk m c 1 t j) (iblk m c 0 t j) := by
  funext j
  show k0_pay1 _ _ (win0_2.xinj (grid0.coords t) j) = _
  rw [pay_apply]
  exact congrArg₂ keep (win0_1.fill_xinj (grid0.coords t) d1 (iblk m c 1 t) j) (win0_0.fill_xinj (grid0.coords t) d0 (iblk m c 0 t) j)

theorem cut_outBlock (c : Dev nD) (t : Fin cfg0.N) :
    win0_2.cut (grid0.coords t) (outBlock m c t) = fun j => keep (iblk m c 1 t j) (iblk m c 0 t j) := by
  funext j
  show keep (maskBlock m c t (win0_2.xinj (grid0.coords t) j)) (valBlock m c t (win0_2.xinj (grid0.coords t) j)) = _
  exact congrArg₂ keep (win0_1.fill_xinj (grid0.coords t) _ (iblk m c 1 t) j) (win0_0.fill_xinj (grid0.coords t) _ (iblk m c 0 t) j)

/-! ## The body obligation -/

/-- What the body is called with at point `t`: the invariant, nothing owed, and each window's current staging buffer
    at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: each buffer at the proof data's contents ON THE MOVED ROWS, anything below them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- At every point: the inputs' buffers arrive holding their blocks filled out with anything, the result's holding
    anything; they leave holding the same and the payload, whose moved rows are the proof data's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel (F := F) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.cut (grid0.coords t) (valBlock m c t) = iblk m c 0 t := win0_0.cut_fill _ _ _
  have h1 : win0_1.cut (grid0.coords t) (maskBlock m c t) = iblk m c 1 t := win0_1.cut_fill _ _ _
  isplitl [H0]
  · iexists d0; rw [h0]; iexact H0
  isplitl [H1]
  · iexists d1; rw [h1]; iexact H1
  · iexists stored (win0_0.fill (grid0.coords t) d0 (iblk m c 0 t)) (win0_1.fill (grid0.coords t) d1 (iblk m c 1 t))
    rw [cut_outBlock, ← cut_pay m c t d0 d1, ← stored_eq, Window.fill_cut]
    iexact H2

/-- The library's body obligation (its form for windows stated on the moved rows only), at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    proof data computes and every other buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, nothing faults, and the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The specification both programs are compared with: over 20000000 entries, entry `k` of the result is the value at
  `k` where the mask bit at `k` is set, and the zero word where it is not. It mentions no program.
-/
import Idealize.ShloMosaic.PureOps

noncomputable section

namespace Cert.Spec

open Idealize.ShloMosaic

/-- The flat shape of the arguments and of the result. -/
abbrev Flat : Shape := ⟨1, ![20000000]⟩

variable {F : FTy → Type} [FloatOps F]

/-- Entry `k` of the result: the value where the mask bit is set, the zero word elsewhere. -/
def dropped (mask : Flat.Idx → BitVec 1) (values : Flat.Idx → F .f32) : Flat.Idx → F .f32 :=
  fun k => Scalar.select (mask k) (values k) (FloatOps.ofBits .f32 0x00000000#32)

/-- A bit widened to a 32-bit word is non-zero exactly when the bit is set (both bits, checked). -/
theorem widened_ne_zero : ∀ b : BitVec 1, IntOp.cmpi .ne (b.setWidth 32) 0#32 = b := by decide

end Cert.Spec

end
-- ==== Proof.IdealValue.lean ====
/-
  What the idealized kernel's result array holds after the run, as one function of the argument arrays.

  Before the region the host reshapes the values (20000000 entries) to 156250 × 128, and reshapes the mask likewise and
  widens its bits to 32-bit words. Point `t` of the region writes back rows `16384·t ‥` of `keep` of those two arrays:
  16384 rows for `t < 9`, the remaining 8794 rows for `t = 9`. Row `r` is in the block of point `r / 16384`, so the ten
  blocks cover the array, and it ends holding `keep` of the two arrays entry by entry. After the region the host
  reshapes it back to 20000000 entries; a reshape there and back is the identity, and a widened bit is non-zero exactly
  when the bit is set, so entry `k` of the result is `values k` where `mask k` is set and the zero word elsewhere.
-/
import proofs.«114767_j5171140624758_2_alg».proof.Proof.IdealBody
import proofs.«114767_j5171140624758_2_alg».proof.Proof.Spec
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays the region finds -/

/-- The values as the region finds them: the argument reshaped to 156250 × 128. -/
theorem V_values (c : Dev nD) :
    (V m c main_v0 : S156250x128.Idx → F .f32)
      = shapeCast S156250x128 (m ((c : Thread nD τ).loc main_arg1)) shapeCasts_S20000000_S156250x128 := by
  show StableHlo.after hostOps0 (fun b => m (c, b)) (Proc.devRef .tc main_v0) = _
  after_results
  rfl

/-- The mask as the region finds it: the argument reshaped to 156250 × 128, each bit widened to a word. -/
theorem V_mask (c : Dev nD) :
    (V m c main_v2 : S156250x128.Idx → BitVec 32)
      = extui 32 (shapeCast S156250x128 (m ((c : Thread nD τ).loc main_arg2)) shapeCasts_S20000000_S156250x128) natLt_1_32 := by
  show StableHlo.after hostOps0 (fun b => m (c, b)) (Proc.devRef .tc main_v2) = _
  after_results
  rfl

/-- What the result array is shown to end holding: `keep`, entry by entry, of the mask and the values as the region
    finds them. -/
def kept2d (c : Dev nD) : S156250x128.Idx → F .f32 := fun i => keep (V m c main_v2 i) (V m c main_v0 i)

/-! ## From blocks to the array -/

/-- The printed index maps, decided over the ten points: the three windows move together, point `t`'s block starts at
    row `16384·t` and column 0, spans all 128 columns, and has 16384 rows inside the array but for the last, which has
    8794. -/
theorem idx_facts : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) = t.val ∧ win0_2.index t (1 : Fin 2) = 0
    ∧ win0_2.xsize (grid0.coords t) (0 : Fin 2) = (if t.val = 9 then 8794 else 16384)
    ∧ win0_2.xsize (grid0.coords t) (1 : Fin 2) = 128 :=
  (by decide +kernel : ∀ t : Fin grid0.N, _)

/-- What point `t` writes back is block `t` of `kept2d`. -/
theorem flushed_eq (c : Dev nD) (t : Fin cfg0.N) :
    (dats m 0 c).flushed 2 t = ((cfg0.win 2).blk t).view.read (Elt F) (kept2d m c) := by
  show (cfg0.win 2).cut (grid0.coords t) ((dats m 0 c).after 2 t) = _
  rw [after_2]
  show win0_2.cut (grid0.coords t) (outBlock m c t) = _
  rw [cut_outBlock]
  obtain ⟨e0, e1, e2, e3, -⟩ := idx_facts t
  funext j
  show keep (V m c main_v2 (((cfg0.win 1).blk t).view.emb j)) (V m c main_v0 (((cfg0.win 0).blk t).view.emb j))
    = keep (V m c main_v2 (((cfg0.win 2).blk t).view.emb j)) (V m c main_v0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 16384 + 1 * (j 0).val = win0_2.index t (0 : Fin 2) * 16384 + 1 * (j 0).val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is among the block's coordinates inside the
    array. -/
theorem mem_blk (t : Fin cfg0.N) (i : S156250x128.Idx) :
    i ∈ ((cfg0.win 2).blk t).view.set ↔ ∀ a : Fin 2, win0_2.index t a * S16384x128.size a ≤ (i a).val
      ∧ (i a).val < win0_2.index t a * S16384x128.size a + win0_2.xsize (grid0.coords t) a := by
  show i ∈ ((View.whole main_v3).slice (win0_2.rect t)).set ↔ _
  rw [View.set_slice_whole, Rect.mem_set_unit]
  exact Iff.rfl

/-- Row `r` is in the block of point `r / 16384`: the ten blocks cover the array. -/
theorem cover (i : S156250x128.Idx) :
    ∃ t : Fin cfg0.N, (cfg0.win 2).flush t = true ∧ i ∈ ((cfg0.win 2).blk t).view.set := by
  have hi0 : (i 0).val < 156250 := (i 0).isLt
  have hi1 : (i 1).val < 128 := (i 1).isLt
  have hN : (i 0).val / 16384 < grid0.N := by rw [N_0]; omega
  obtain ⟨-, -, -, -, e4, e5, e6, e7⟩ := idx_facts ⟨(i 0).val / 16384, hN⟩
  refine ⟨⟨(i 0).val / 16384, hN⟩, flush0_2 _, ?_⟩
  rw [mem_blk]
  intro a
  match a with
  | ⟨0, _⟩ =>
    show win0_2.index ⟨(i 0).val / 16384, hN⟩ (0 : Fin 2) * 16384 ≤ (i 0).val
      ∧ (i 0).val < win0_2.index ⟨(i 0).val / 16384, hN⟩ (0 : Fin 2) * 16384 + win0_2.xsize (grid0.coords ⟨(i 0).val / 16384, hN⟩) (0 : Fin 2)
    rw [e4, e6]
    show (i 0).val / 16384 * 16384 ≤ (i 0).val ∧ (i 0).val < (i 0).val / 16384 * 16384 + (if (i 0).val / 16384 = 9 then 8794 else 16384)
    split <;> omega
  | ⟨1, _⟩ =>
    show win0_2.index ⟨(i 0).val / 16384, hN⟩ (1 : Fin 2) * 128 ≤ (i 1).val
      ∧ (i 1).val < win0_2.index ⟨(i 0).val / 16384, hN⟩ (1 : Fin 2) * 128 + win0_2.xsize (grid0.coords ⟨(i 0).val / 16384, hN⟩) (1 : Fin 2)
    rw [e5, e7]; omega

/-- The result array after the region. -/
theorem final (c : Dev nD) : (dats m 0 c).arrAt 2 cfg0.N = kept2d m c :=
  (dats m 0 c).arrAt_eq_of_cover 2 (kept2d m c) (fun t _ => flushed_eq m c t) (cover)

/-! ## After the region -/

/-- Reshaped to 20000000 entries, `kept2d` is `dropped` of the mask and the values as launched. -/
theorem flat_eq (c : Dev nD) :
    shapeCast S20000000 (kept2d m c) shapeCasts_S156250x128_S20000000
      = Cert.Spec.dropped (m ((c : Thread nD τ).loc main_arg2)) (m ((c : Thread nD τ).loc main_arg1)) := by
  unfold kept2d
  rw [V_values, V_mask]
  funext k
  show keep ((shapeCast S20000000 (shapeCast S156250x128 (m ((c : Thread nD τ).loc main_arg2)) shapeCasts_S20000000_S156250x128)
        shapeCasts_S156250x128_S20000000 k).setWidth 32)
      (shapeCast S20000000 (shapeCast S156250x128 (m ((c : Thread nD τ).loc main_arg1)) shapeCasts_S20000000_S156250x128)
        shapeCasts_S156250x128_S20000000 k) = _
  rw [shapeCast_shapeCast, shapeCast_shapeCast]
  unfold keep Cert.Spec.dropped
  rw [Cert.Spec.widened_ne_zero]

/-- The program's result after the host line that follows the region. -/
theorem tail_result (c : Dev nD) :
    Pipeline.afterTail₀ cfgs (dats m) 0 (V0 m) [hostOps1] c main_v4
      = Cert.Spec.dropped (m ((c : Thread nD τ).loc main_arg2)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = kept2d m c := (Pipeline.withArrays_arr spec0 launch0.win.arr_inj c _ _ 2).trans (final m c)
  rw [hw]
  exact flat_eq m c

/-! ## The run -/

/-- Every weakly fair execution of the idealized kernel terminates with the result at `dropped` of the mask and the
    values as launched, and the three arguments unchanged. -/
theorem kernel_run : θ_run defs (onTc (τ := τ) (main (F := F))) ⟨m, fun _ => 0, ρ⟩ (fun r => ∀ c : Dev nD,
      r.2.mem ((c.tc : Thread nD τ).loc main_v4)
        = Cert.Spec.dropped (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference computes the specification: its one selection, entry by entry, takes the value where the mask bit is
  set and the splat zero word elsewhere.
-/
import proofs.«114767_j5171140624758_2_alg».proof.Proof.Gen.ReferenceIdeal.Read
import proofs.«114767_j5171140624758_2_alg».proof.Proof.Spec

noncomputable section

namespace Cert.ReferenceIdeal.RefValue

open Cert.ReferenceIdeal Cert.ReferenceIdeal.Gen Cert.ReferenceIdeal.Read Idealize.ShloMosaic

variable {F : FTy → Type} [FloatOps F]

/-- The reference run's result term is `dropped` of its mask and values: the selection reads entry `k` of each operand,
    the third operand being the zero word at every entry. -/
theorem result_eq (values : FVec F S20000000 .f32) (mask : IVec S20000000 1) :
    select mask values (broadcastInDim S20000000 ![] bcast_S_S20000000 (constant S_ .f32 0x00000000#32))
      = Cert.Spec.dropped mask values := by
  rw [val_main_v0_eq]
  funext k
  rw [val_main_v0_apply, val_main_call0_v0_apply, val_main_cst_apply]
  rfl

end Cert.ReferenceIdeal.RefValue

end
-- ==== Proof.lean ====
/-
  Masked selection over 20000000 entries: the kernel against its reference.

  Both programs return, at entry `k`, the value at `k` where the mask bit at `k` is set and the zero word elsewhere
  (`Cert.Spec.dropped`). The reference does it in one selection over the flat arrays. The kernel reshapes the values
  and the mask to 156250 × 128, widens the mask's bits to words, and runs an entrywise body over ten row blocks of
  16384 rows — the last block overhanging the array, only its 8794 rows inside the array being moved — then reshapes the
  result back. A reshape there and back is the identity and a widened bit is non-zero exactly when the bit is set, so the
  two results agree entry by entry; no arithmetic on the values is involved and the inputs' finiteness is not used.

  The three frames: each program's run terminates without a fault and leaves its arguments as they were. The
  idealization rewrote nothing, so the kernel's idealization claim is trivial.
-/
import proofs.«114767_j5171140624758_2_alg».proof.Defs
import proofs.«114767_j5171140624758_2_alg».proof.Proof.Gen.Kernel
import proofs.«114767_j5171140624758_2_alg».proof.Proof.Gen.KernelIdeal
import proofs.«114767_j5171140624758_2_alg».proof.Proof.Gen.ReferenceIdeal
import proofs.«114767_j5171140624758_2_alg».proof.Proof.Gen.Pre_finite_inputs
import proofs.«114767_j5171140624758_2_alg».proof.Proof.Gen.ReferenceIdeal.Run
import proofs.«114767_j5171140624758_2_alg».proof.Proof.BitsBody
import proofs.«114767_j5171140624758_2_alg».proof.Proof.IdealValue
import proofs.«114767_j5171140624758_2_alg».proof.Proof.RefValue
import Idealize.ShloMosaic.Adequacy
import Idealize.ShloMosaic.Init

noncomputable section

namespace Cert.Proof

open Idealize.ShloMosaic Idealize.SL.Sem

/-- The word-level kernel runs to the end and keeps its arguments. -/
theorem frame_kernel : @Cert.frame_Kernel Cert.Kernel.Gen.facts Cert.Pre_finite_inputs.Gen.facts :=
  fun m ρ _ => Cert.Kernel.Hand.frame m ρ

/-- So does the idealized kernel. -/
theorem frame_kernelIdeal : @Cert.frame_KernelIdeal Cert.KernelIdeal.Gen.facts Cert.Pre_finite_inputs.Gen.facts :=
  fun m ρ _ => Cert.KernelIdeal.Hand.frame m ρ

/-- And the reference: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both idealized programs end with the result at `dropped` of the mask and
    the values: the kernel by its run, the reference by its run and `result_eq`. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Hand.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).2.1, (hagree c).2.2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
